-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x1024 : Shape := ⟨2, ![512, 1024]⟩
abbrev S2x160000 : Shape := ⟨2, ![2, 160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S10000x512 .f32) (main_arg1 : FVec F S512x1024 .f32) (main_arg2 : IVec S2x160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S10000x512 : Shape := ⟨2, ![10000, 512]⟩
abbrev S512x1024 : Shape := ⟨2, ![512, 1024]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S160000x513 : Shape := ⟨2, ![160000, 513]⟩
abbrev S10000x513 : Shape := ⟨2, ![10000, 513]⟩
abbrev S10000x1 : Shape := ⟨2, ![10000, 1]⟩
abbrev S10000 : Shape := ⟨1, ![10000]⟩
abbrev S512x512 : Shape := ⟨2, ![512, 512]⟩
abbrev S10240x512 : Shape := ⟨2, ![10240, 512]⟩
abbrev S2048x512 : Shape := ⟨2, ![2048, 512]⟩

abbrev nBuf : Space → Nat
  | .hbm => 44
  | .vmem => 8
  | .smem => 0
  | _ => 0

abbrev bufTy : (tb : Table) → Fin (tcTables nBuf tb) → BufTy
  | .hbm, ⟨0, _⟩ => ⟨S10000x512, .f32⟩
  | .hbm, ⟨1, _⟩ => ⟨S512x1024, .f32⟩
  | .hbm, ⟨2, _⟩ => ⟨S2x160000, .i32⟩
  | .hbm, ⟨3, _⟩ => ⟨S1x160000, .i32⟩
  | .hbm, ⟨4, _⟩ => ⟨S160000, .i32⟩
  | .hbm, ⟨5, _⟩ => ⟨S1x160000, .i32⟩
  | .hbm, ⟨6, _⟩ => ⟨S160000, .i32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .f32⟩
  | .hbm, ⟨17, _⟩ => ⟨S160000x1, .f32⟩
  | .hbm, ⟨18, _⟩ => ⟨S160000x513, .f32⟩
  | .hbm, ⟨19, _⟩ => ⟨S_, .f32⟩
  | .hbm, ⟨20, _⟩ => ⟨S10000x513, .f32⟩
  | .hbm, ⟨21, _⟩ => ⟨S160000x1, .i32⟩
  | .hbm, ⟨22, _⟩ => ⟨S10000x513, .f32⟩
  | .hbm, ⟨23, _⟩ => ⟨S10000x512, .f32⟩
  | .hbm, ⟨24, _⟩ => ⟨S10000x1, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x512, .f32⟩
  | .hbm, ⟨31, _⟩ => ⟨S10000x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .i32⟩
  | .hbm, ⟨37, _⟩ => ⟨S_, .f32⟩
  | .hbm, ⟨38, _⟩ => ⟨S10240x512, .f32⟩
  | .hbm, ⟨39, _⟩ => ⟨S_, .i32⟩
  | .hbm, ⟨40, _⟩ => ⟨S_, .f32⟩
  | .hbm, ⟨41, _⟩ => ⟨S10240x512, .f32⟩
  | .hbm, ⟨42, _⟩ => ⟨S10240x512, .f32⟩
  | .hbm, ⟨43, _⟩ => ⟨S10000x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S2048x512, .f32⟩
  | .local _ .vmem, ⟨7, _⟩ => ⟨S2048x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call0_v0 : Ref sig .tc := ⟨.hbm, 37, rfl⟩
abbrev main_v28 : Ref sig .tc := ⟨.hbm, 38, rfl⟩
abbrev main_c_4 : Ref sig .tc := ⟨.hbm, 39, rfl⟩
abbrev main_call1_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  concatenates_S160000x512_S160000x1_S160000x513_d1 : Shape.Concatenates [S160000x512, S160000x1] S160000x513 1
  bcast_S_S10000x513 : S_.BroadcastsInDim S10000x513 (![] : Fin 0 → Fin S10000x513.rank)
  slices_S10000x513_S10000x512_0_0 : S10000x513.Slices ![0, 0] S10000x512
  slices_S10000x513_S10000x1_0_512 : S10000x513.Slices ![0, 512] S10000x1
  shapeCasts_S10000x1_S10000 : S10000x1.ShapeCasts S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  slices_S512x1024_S512x512_0_0 : S512x1024.Slices ![0, 0] S512x512
  slices_S512x1024_S512x512_0_512 : S512x1024.Slices ![0, 512] S512x512
  transposes_S512x512_S512x512_1_0 : S512x512.Transposes [1, 0] S512x512
  pads_S10000x512_S10240x512_02400_000 : S10000x512.Pads (![0, 0] : Fin 2 → Nat) ![240, 0] ![0, 0] S10240x512
  h_S_ : 0 < S_.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S10240x512_S10000x512_0_0 : S10240x512.Slices ![0, 0] S10000x512
  gather_S10000x512_S160000x1_S160000x512_1_0_n_n_0_1_1512_wf : GatherDims.WF S10000x512 S160000x1 S160000x512 [1] [0] [] [0] [] 1 ![1, 512]
  scatter_S10000x513_S160000x1_S160000x513_1_0_0_1_wf : ScatterDims.WF S10000x513 S160000x1 S160000x513 [1] [0] [0] 1
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S10240x512.size a
  hwx0_0 : ∀ i : grid0.Coords, EltTy.bits .f32 = 32 ∨ (Rect.block (s := S10240x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S10240x512.size a
  hwx0_1 : ∀ i : grid0.Coords, EltTy.bits .f32 = 32 ∨ (Rect.block (s := S10240x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S10240x512.size a
  hwx0_4 : ∀ i : grid0.Coords, EltTy.bits .f32 = 32 ∨ (Rect.block (s := S10240x512) S2048x512.size (cc0_transform_4 i) (hinb0_4 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x513_S160000x1_S160000x513_1_0_0_1 : ScatterDims S10000x513 S160000x1 S160000x513 where
  updateWindowDims := [1]
  insertedWindowDims := [0]
  scatterDimsToOperandDims := [0]
  indexVectorDim := 1
  wf := scatter_S10000x513_S160000x1_S160000x513_1_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v28) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x1024 : Shape := ⟨2, ![512, 1024]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x1024 : Shape := ⟨2, ![10000, 1024]⟩

abbrev nBuf : Space → Nat
  | .hbm => 37
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x1024, .f32⟩
  | .hbm, ⟨2, _⟩ => ⟨S2x160000, .i32⟩
  | .hbm, ⟨3, _⟩ => ⟨S1x160000, .i32⟩
  | .hbm, ⟨4, _⟩ => ⟨S160000, .i32⟩
  | .hbm, ⟨5, _⟩ => ⟨S1x160000, .i32⟩
  | .hbm, ⟨6, _⟩ => ⟨S160000, .i32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .f32⟩
  | .hbm, ⟨17, _⟩ => ⟨S10000x512, .f32⟩
  | .hbm, ⟨18, _⟩ => ⟨S160000x1, .i32⟩
  | .hbm, ⟨19, _⟩ => ⟨S10000x512, .f32⟩
  | .hbm, ⟨20, _⟩ => ⟨S_, .f32⟩
  | .hbm, ⟨21, _⟩ => ⟨S160000, .f32⟩
  | .hbm, ⟨22, _⟩ => ⟨S_, .f32⟩
  | .hbm, ⟨23, _⟩ => ⟨S10000, .f32⟩
  | .hbm, ⟨24, _⟩ => ⟨S160000x1, .i32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x512, .f32⟩
  | .hbm, ⟨31, _⟩ => ⟨S10000x512, .f32⟩
  | .hbm, ⟨32, _⟩ => ⟨S10000x1024, .f32⟩
  | .hbm, ⟨33, _⟩ => ⟨S10000x512, .f32⟩
  | .hbm, ⟨34, _⟩ => ⟨S_, .f32⟩
  | .hbm, ⟨35, _⟩ => ⟨S10000x512, .f32⟩
  | .hbm, ⟨36, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  concatenates_S10000x512_S10000x512_S10000x1024_d1 : Shape.Concatenates [S10000x512, S10000x512] S10000x1024 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x1024_S512x1024_S10000x512_1_1_0_0_n_n_wf : DotDims.WF S10000x1024 S512x1024 S10000x512 [1] [1] [0] [0] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x1024_S512x1024_S10000x512_1_1_0_0_n_n : DotDims S10000x1024 S512x1024 S10000x512 where
  lhsContracting := [1]
  rhsContracting := [1]
  lhsNonContracting := [0]
  rhsNonContracting := [0]
  lhsBatch := []
  rhsBatch := []
  wf := dot_S10000x1024_S512x1024_S10000x512_1_1_0_0_n_n_wf

class Facts : Prop extends Facts₀ where

variable [Facts]
-- ==== Proof.KHost.lean ====
import proofs.«116235_j62569083568400_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat)

/-! The host operations before the region, as functions of the argument arrays: the gathered neighbour rows, the
    destination-node column, the scatter of `[neighbour rows | 1]` over the destination nodes (each node's feature sums
    in the first 512 columns and its in-degree in the last), the neighbour mean `sums / max (degree, 1)`, and what
    the region's four input windows stage: the features and the means padded with 240 rows, and the two transposed
    halves of the weight matrix. -/

variable {F : FTy → Type} [FloatOps F]

/-- The source-node row of the edge list. -/
def srcK (a2 : (⟨S2x160000, .i32⟩ : BufTy).Contents (Elt F)) : (⟨S160000, .i32⟩ : BufTy).Contents (Elt F) :=
  shapeCast _ (extractStridedSlice S1x160000 ![0, 0] a2 slices_S2x160000_S1x160000_0_0) shapeCasts_S1x160000_S160000

/-- The destination-node row of the edge list, as a column of scatter indices. -/
def dstK (a2 : (⟨S2x160000, .i32⟩ : BufTy).Contents (Elt F)) : (⟨S160000x1, .i32⟩ : BufTy).Contents (Elt F) :=
  broadcastInDim S160000x1 ![0] bcast_S160000_S160000x1_0
    (shapeCast _ (extractStridedSlice S1x160000 ![1, 0] a2 slices_S2x160000_S1x160000_1_0) shapeCasts_S1x160000_S160000)

/-- The features of each edge's source node (a negative node number counted from the end). -/
def gathK (a0 : (⟨S10000x512, .f32⟩ : BufTy).Contents (Elt F)) (a2 : (⟨S2x160000, .i32⟩ : BufTy).Contents (Elt F)) :
    (⟨S160000x512, .f32⟩ : BufTy).Contents (Elt F) :=
  Host.gather gather_S10000x512_S160000x1_S160000x512_1_0_n_n_0_1_1512 a0
    (broadcastInDim S160000x1 ![0] bcast_S160000_S160000x1_0
      (select (cmpi .slt (srcK a2) (broadcastInDim S160000 ![] bcast_S_S160000 (constantI S_ 32 0#32)))
        (addi (srcK a2) (broadcastInDim S160000 ![] bcast_S_S160000 (constantI S_ 32 10000#32))) (srcK a2)))

/-- Per destination node: the sums of its in-neighbours' features (columns 0–511) and its in-degree (column 512). -/
def sumsK (a0 : (⟨S10000x512, .f32⟩ : BufTy).Contents (Elt F)) (a2 : (⟨S2x160000, .i32⟩ : BufTy).Contents (Elt F)) :
    (⟨S10000x513, .f32⟩ : BufTy).Contents (Elt F) :=
  Host.scatterAdd scatter_S10000x513_S160000x1_S160000x513_1_0_0_1
    (broadcastInDim S10000x513 ![] bcast_S_S10000x513 (constant S_ .f32 0x00000000#32)) (dstK a2)
    (concatenate S160000x513 1 [⟨S160000x512, gathK a0 a2⟩,
      ⟨S160000x1, broadcastInDim S160000x1 ![] bcast_S_S160000x1 (constant S_ .f32 0x3F800000#32)⟩]
      concatenates_S160000x512_S160000x1_S160000x513_d1)

/-- The neighbour mean: the feature sums over `max (in-degree, 1)`. -/
def meanK (a0 : (⟨S10000x512, .f32⟩ : BufTy).Contents (Elt F)) (a2 : (⟨S2x160000, .i32⟩ : BufTy).Contents (Elt F)) :
    (⟨S10000x512, .f32⟩ : BufTy).Contents (Elt F) :=
  Host.divf (extractStridedSlice S10000x512 ![0, 0] (sumsK a0 a2) slices_S10000x513_S10000x512_0_0)
    (broadcastInDim S10000x512 ![0, 1] bcast_S10000x1_S10000x512_0_1
      (broadcastInDim S10000x1 ![0] bcast_S10000_S10000x1_0
        (maximumf (shapeCast _ (extractStridedSlice S10000x1 ![0, 512] (sumsK a0 a2) slices_S10000x513_S10000x1_0_512) shapeCasts_S10000x1_S10000)
          (broadcastInDim S10000 ![] bcast_S_S10000 (constant S_ .f32 0x3F800000#32)))))

/-- An array of 10000 rows with 240 rows of the padding value below it. -/
def padK (x : (⟨S10000x512, .f32⟩ : BufTy).Contents (Elt F)) : (⟨S10240x512, .f32⟩ : BufTy).Contents (Elt F) :=
  pad S10240x512 ![0, 0] ![240, 0] ![0, 0] x (sitofp (F := F) .f32 (constantI S_ 32 0#32)) pads_S10000x512_S10240x512_02400_000 h_S_

/-- The transposed left half of the weights. -/
def wxK (a1 : (⟨S512x1024, .f32⟩ : BufTy).Contents (Elt F)) : (⟨S512x512, .f32⟩ : BufTy).Contents (Elt F) :=
  transpose S512x512 [1, 0] (extractStridedSlice S512x512 ![0, 0] a1 slices_S512x1024_S512x512_0_0) transposes_S512x512_S512x512_1_0

/-- The transposed right half of the weights. -/
def wmK (a1 : (⟨S512x1024, .f32⟩ : BufTy).Contents (Elt F)) : (⟨S512x512, .f32⟩ : BufTy).Contents (Elt F) :=
  transpose S512x512 [1, 0] (extractStridedSlice S512x512 ![0, 512] a1 slices_S512x1024_S512x512_0_512) transposes_S512x512_S512x512_1_0

variable (m : (ℓ : Loc nD τ sig) → Buf (Elt F) ℓ)

/-- The first window's array at region entry: the padded features. -/
theorem V_v28 (c : Dev nD) : V m c main_v28 = padK (m ((c : Thread nD τ).loc main_arg0)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

set_option maxHeartbeats 4000000 in
/-- The second window's array at region entry: the padded neighbour means. -/
theorem V_v29 (c : Dev nD) : V m c main_v29 = padK (meanK (m ((c : Thread nD τ).loc main_arg0)) (m ((c : Thread nD τ).loc main_arg2))) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The third window's array at region entry: the transposed left half of the weights. -/
theorem V_v26 (c : Dev nD) : V m c main_v26 = wxK (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The fourth window's array at region entry: the transposed right half of the weights. -/
theorem V_v27 (c : Dev nD) : V m c main_v27 = wmK (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Cert.KernelIdeal.Bridge

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.KPay.lean ====
/-
  The body of one grid point, read at an entry. The body loads a 2048-row block of the padded features `a`, the same
  rows of the padded neighbour means `b`, and the two 512×512 weight halves `u`, `v`, and stores
  `max (a·u + b·v, 0)`. On the extended reals the changes of float format are the identity and each matrix product
  into a zero accumulator is the textbook sum, so entry `(p, q)` of the stored block is
  `max ((∑ i, a (p, i) · u (i, q)) + (∑ i, b (p, i) · v (i, q)), 0)`.
-/
import proofs.«116235_j62569083568400_2_alg».proof.Proof.Gen.KernelIdeal.Skeleton
import proofs.«116235_j62569083568400_2_alg».proof.Proof.LibDot
import Idealize.ShloMosaic.PureOps.Ideal.Laws
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.ValueIdx

/-- The kernel's product into a zero accumulator is the plain product: rows × contraction by contraction × columns. -/
theorem matmul_zero_apply (l : FVec Ideal S2048x512 .bf16) (r : FVec Ideal S512x512 .bf16) (p : Fin 2048) (q : Fin 512) :
    matmul dot_S2048x512_S512x512_S2048x512_1_0_0_1_n_n none l r (constant S2048x512 .f32 0x00000000#32) (ix2 p q)
      = ∑ i : Fin 512, l (ix2 p i) * r (ix2 i q) :=
  (Ideal.matmul_constant_zero_apply (DotDims.plain 2048 512 512) none l r (ix2 p q)).trans
    (Cert.LibDot.plain_sum 2048 512 512 l r p q)

/-- One entry of the block a grid point stores. -/
theorem pay_apply (a b : Vec Ideal S2048x512 .f32) (u v : Vec Ideal S512x512 .f32) (p : Fin 2048) (q : Fin 512) :
    k0_pay1 (F := Ideal) a b u v (ix2 p q)
      = max ((∑ i : Fin 512, a (ix2 p i) * u (ix2 i q)) + ∑ i : Fin 512, b (ix2 p i) * v (ix2 i q)) 0 := by
  unfold k0_pay1
  rw [maximumf_apply, addf_apply, matmul_zero_apply, matmul_zero_apply, broadcast_apply]
  simp only [truncf_apply, shapeCast_self]
  show max _ (Ideal.ofBits .f32 0x00000000#32) = _
  rw [Ideal.ofBits_zero_f32]

end Cert.KernelIdeal.Bridge

end
-- ==== Proof.KBlocks.lean ====
import proofs.«116235_j62569083568400_2_alg».proof.Proof.Gen.KernelIdeal.Frame
import Idealize.ShloMosaic.Lib.StableHlo.Run
import Idealize.ShloMosaic.Lib.Pipeline.Value
import Idealize.ShloMosaic.Lib.ValueIdx
import proofs.«116235_j62569083568400_2_alg».proof.Proof.KPay

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat)

open Idealize.ShloMosaic.ValueIdx

/-! The region's output array, from its blocks. Grid point `t` stores rows `2048 t … 2048 t + 2047` of the padded
    output; the five blocks tile its 10240 rows. Row `r` of a block's feature and mean inputs is row `2048 t + r` of
    the padded arrays and the weight halves are staged whole, so every entry `(r, q)` of the padded output is
    `max ((∑ i, A (r, i) · U (i, q)) + (∑ i, B (r, i) · W (i, q)), 0)` of the four arrays the region finds. -/

/-- One entry of the padded output, from the padded features `A`, the padded means `B` and the weight halves `U`, `W`. -/
def outPad (A B : S10240x512.Idx → EReal) (U W : S512x512.Idx → EReal) : S10240x512.Idx → EReal :=
  fun j => max ((∑ i : Fin 512, A (ix2 (j 0 : Fin 10240) i) * U (ix2 i (j 1 : Fin 512)))
    + ∑ i : Fin 512, B (ix2 (j 0 : Fin 10240) i) * W (ix2 i (j 1 : Fin 512))) 0

/-- One stored entry is the padded output's entry, once the loaded blocks' rows are rows of the arrays. -/
theorem block_eq (A B : S10240x512.Idx → EReal) (U W : S512x512.Idx → EReal)
    (x0 x1 : Vec Ideal S2048x512 .f32) (x2 x3 : Vec Ideal S512x512 .f32) (p : Fin 2048) (q : Fin 512) (r : Fin 10240)
    (h0 : ∀ i : Fin 512, x0 (ix2 p i) = A (ix2 r i)) (h1 : ∀ i : Fin 512, x1 (ix2 p i) = B (ix2 r i))
    (h2 : ∀ i : Fin 512, x2 (ix2 i q) = U (ix2 i q)) (h3 : ∀ i : Fin 512, x3 (ix2 i q) = W (ix2 i q)) :
    k0_pay1 (F := Ideal) x0 x1 x2 x3 (ix2 p q) = outPad A B U W (ix2 r q) := by
  rw [pay_apply]
  show _ = max ((∑ i : Fin 512, A (ix2 r i) * U (ix2 i q)) + ∑ i : Fin 512, B (ix2 r i) * W (ix2 i q)) 0
  refine congrArg₂ max (congrArg₂ (· + ·) (Finset.sum_congr rfl fun i _ => ?_) (Finset.sum_congr rfl fun i _ => ?_)) rfl
  · rw [h0 i, h2 i]
  · rw [h1 i, h3 i]

variable (m : (ℓ : Loc nD τ sig) → Buf (Elt Ideal) ℓ)

theorem hz : (![0, 0] : Fin 2 → Nat) = fun _ => 0 := funext fun a => by fin_cases a <;> rfl

/-- The printed index maps over the five grid points: the row-block inputs move with the output block, the weight
    halves stay, and the output's block row is at most 4. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 4 :=
  (by decide +kernel : ∀ t : Fin grid0.N, _)

/-- Every block row of the output is some grid point's. -/
theorem idx_onto : ∀ q0 : Fin 5, ∃ t : Fin cfg0.N, win0_4.index t = ![q0.val, 0] :=
  (by decide +kernel : ∀ q0 : Fin 5, ∃ t : Fin grid0.N, win0_4.index t = ![q0.val, 0])

set_option maxHeartbeats 1000000 in
/-- What grid point `t` writes back is block `t` of `outPad` of the arrays the region finds. -/
theorem flushed4_eq (c : Dev nD) (t : Fin cfg0.N) :
    (dats m 0 c).flushed 4 t = ((cfg0.win 4).blk t).view.read (Elt Ideal)
      (outPad (V m c main_v28) (V m c main_v29) (V m c main_v26) (V m c main_v27)) := by
  show (cfg0.win 4).cut (grid0.coords t) ((dats m 0 c).after 4 t) = _
  rw [after0_4]
  unfold out0_4
  rw [View.canon_unit_zero hz]
  simp only [View.ld_unit_zero (S := S2048x512) hz, View.ld_unit_zero (S := S512x512) hz]
  obtain ⟨e0, e1, e2, e3, e4, e5, e6, e7, e8, e9⟩ := idx_facts t
  funext j
  obtain ⟨p, q, rfl⟩ : ∃ (p : Fin 2048) (q : Fin 512), j = ix2 p q := ⟨j 0, j 1, eq_ix2 j⟩
  have hp : p.val < 2048 := p.isLt
  let r : Fin 10240 := ⟨win0_4.index t (0 : Fin 2) * 2048 + p.val, by omega⟩
  have hemb : ((cfg0.win 4).blk t).view.emb (ix2 p q) = ix2 r q := by
    funext a; apply Fin.ext
    match a with
    | ⟨0, _⟩ => show win0_4.index t (0 : Fin 2) * 2048 + 1 * p.val = win0_4.index t (0 : Fin 2) * 2048 + p.val; omega
    | ⟨1, _⟩ => show win0_4.index t (1 : Fin 2) * 512 + 1 * q.val = q.val; omega
  have h0 : ∀ i : Fin 512, ((cfg0.win 0).blk t).view.emb (ix2 p i) = ix2 r i := fun i => by
    funext a; apply Fin.ext
    match a with
    | ⟨0, _⟩ => show win0_0.index t (0 : Fin 2) * 2048 + 1 * p.val = win0_4.index t (0 : Fin 2) * 2048 + p.val; omega
    | ⟨1, _⟩ => show win0_0.index t (1 : Fin 2) * 512 + 1 * i.val = i.val; omega
  have h1 : ∀ i : Fin 512, ((cfg0.win 1).blk t).view.emb (ix2 p i) = ix2 r i := fun i => by
    funext a; apply Fin.ext
    match a with
    | ⟨0, _⟩ => show win0_1.index t (0 : Fin 2) * 2048 + 1 * p.val = win0_4.index t (0 : Fin 2) * 2048 + p.val; omega
    | ⟨1, _⟩ => show win0_1.index t (1 : Fin 2) * 512 + 1 * i.val = i.val; omega
  have h2 : ∀ i : Fin 512, ((cfg0.win 2).blk t).view.emb (ix2 i q) = ix2 i q := fun i => by
    funext a; apply Fin.ext
    match a with
    | ⟨0, _⟩ => show win0_2.index t (0 : Fin 2) * 512 + 1 * i.val = i.val; omega
    | ⟨1, _⟩ => show win0_2.index t (1 : Fin 2) * 512 + 1 * q.val = q.val; omega
  have h3 : ∀ i : Fin 512, ((cfg0.win 3).blk t).view.emb (ix2 i q) = ix2 i q := fun i => by
    funext a; apply Fin.ext
    match a with
    | ⟨0, _⟩ => show win0_3.index t (0 : Fin 2) * 512 + 1 * i.val = i.val; omega
    | ⟨1, _⟩ => show win0_3.index t (1 : Fin 2) * 512 + 1 * q.val = q.val; omega
  show k0_pay1 (iblk m c 0 t) (iblk m c 1 t) (iblk m c 2 t) (iblk m c 3 t) (ix2 p q)
    = outPad (V m c main_v28) (V m c main_v29) (V m c main_v26) (V m c main_v27) (((cfg0.win 4).blk t).view.emb (ix2 p q))
  rw [hemb]
  exact block_eq (V m c main_v28) (V m c main_v29) (V m c main_v26) (V m c main_v27)
    (iblk m c 0 t) (iblk m c 1 t) (iblk m c 2 t) (iblk m c 3 t) p q r
    (fun i => by show V m c main_v28 (((cfg0.win 0).blk t).view.emb (ix2 p i)) = V m c main_v28 (ix2 r i); rw [h0 i])
    (fun i => by show V m c main_v29 (((cfg0.win 1).blk t).view.emb (ix2 p i)) = V m c main_v29 (ix2 r i); rw [h1 i])
    (fun i => by show V m c main_v26 (((cfg0.win 2).blk t).view.emb (ix2 i q)) = V m c main_v26 (ix2 i q); rw [h2 i])
    (fun i => by show V m c main_v27 (((cfg0.win 3).blk t).view.emb (ix2 i q)) = V m c main_v27 (ix2 i q); rw [h3 i])

/-- An index of the padded output is in point `t`'s block iff each coordinate is in the block's range on its axis. -/
theorem mem_blk4 (t : Fin cfg0.N) (i : S10240x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v30).slice (win0_4.rect t)).set ↔ _
  rw [View.set_slice_whole, Rect.mem_set_unit]
  exact Iff.rfl

/-- The five blocks cover the padded output: row `r` is in block `r / 2048`. -/
theorem cover4 (i : S10240x512.Idx) : ∃ t : Fin cfg0.N, (cfg0.win 4).flush t = true ∧ i ∈ ((cfg0.win 4).blk t).view.set := by
  have hi0 : (i 0).val < 10240 := (i 0).isLt
  have hi1 : (i 1).val < 512 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- The padded output after the region. -/
theorem final4 (c : Dev nD) :
    (dats m 0 c).arrAt 4 cfg0.N = outPad (V m c main_v28) (V m c main_v29) (V m c main_v26) (V m c main_v27) :=
  (dats m 0 c).arrAt_eq_of_cover 4 _ (fun t _ => flushed4_eq m c t) cover4

end Cert.KernelIdeal.Bridge

end
-- ==== Proof.Spec.lean ====
/-
  The layer both programs compute, entry by entry on the extended reals:

    out (n, o) = max ((∑ i < 512, x (n, i) · w (o, i)) + (∑ i < 512, mean (n, i) · w (o, 512 + i)), 0),

  the rectified product of `W` with the concatenation `[x | mean]`, written with the contraction over the 1024 columns
  of `W` split at column 512. Splitting a finite sum into its first 512 and its last 512 terms needs only that
  addition is associative and commutative, which it is on the extended reals; no finiteness enters.
-/
import Idealize.ShloMosaic.PureOps.Ideal
import Idealize.ShloMosaic.Lib.ValueIdx

noncomputable section

namespace Cert.Spec

open Idealize.ShloMosaic Idealize.ShloMosaic.ValueIdx

/-- A sum over 1024 indices is the sum over the first 512 plus the sum over the last 512. -/
theorem sum_split {M : Type*} [AddCommMonoid M] (f : Fin 1024 → M) :
    ∑ k : Fin 1024, f k
      = (∑ i : Fin 512, f ⟨i.val, by omega⟩) + ∑ i : Fin 512, f ⟨512 + i.val, by omega⟩ :=
  Fin.sum_univ_add (a := 512) (b := 512) f

/-- The layer's output from the features `x`, the neighbour means `mean` and the weights `w`. -/
def sage (x mean : (⟨2, ![10000, 512]⟩ : Shape).Idx → EReal) (w : (⟨2, ![512, 1024]⟩ : Shape).Idx → EReal) :
    (⟨2, ![10000, 512]⟩ : Shape).Idx → EReal :=
  fun j => max ((∑ i : Fin 512, x (ix2 (j 0 : Fin 10000) i) * w (ix2 (j 1 : Fin 512) (⟨i.val, by omega⟩ : Fin 1024)))
    + ∑ i : Fin 512, mean (ix2 (j 0 : Fin 10000) i) * w (ix2 (j 1 : Fin 512) (⟨512 + i.val, by omega⟩ : Fin 1024))) 0

end Cert.Spec

end
-- ==== Proof.KEntry.lean ====
import proofs.«116235_j62569083568400_2_alg».proof.Proof.Gen.KernelIdeal.Frame
import Idealize.ShloMosaic.Lib.StableHlo.Run
import Idealize.ShloMosaic.Lib.Pipeline.Value
import Idealize.ShloMosaic.Lib.ValueIdx
import proofs.«116235_j62569083568400_2_alg».proof.Proof.KHost
import proofs.«116235_j62569083568400_2_alg».proof.Proof.KBlocks
import proofs.«116235_j62569083568400_2_alg».proof.Proof.Spec
import Idealize.ShloMosaic.Lib.KernelVsHost

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat)

open Idealize.ShloMosaic.ValueIdx

/-! The padded output, cut back to its first 10000 rows, is the layer. A row below 10000 of a padded array is the
    array's own row (the 240 padding rows lie beyond and are cut off again); the transposed left half of the weights
    reads `w (o, i)` at `(i, o)`, the transposed right half `w (o, 512 + i)`. -/

/-- A row below 10000 of a padded array is the array's row. -/
theorem padK_apply (x : (⟨S10000x512, .f32⟩ : BufTy).Contents (Elt Ideal)) (n : Fin 10000) (i : Fin 512) :
    padK (F := Ideal) x (ix2 (⟨n.val, by omega⟩ : Fin 10240) i) = x (ix2 n i) := by
  unfold padK
  exact pad_apply_of_inside ![0, 0] ![240, 0] ![0, 0] x _ pads_S10000x512_S10240x512_02400_000 h_S_
    (ix2 (⟨n.val, by omega⟩ : Fin 10240) i) (ix2 n i) (fun a => by
      match a with
      | ⟨0, _⟩ => show n.val = 0 + n.val * (0 + 1); omega
      | ⟨1, _⟩ => show i.val = 0 + i.val * (0 + 1); omega)

/-- The transposed left half of the weights at `(i, o)` is `w (o, i)`. -/
theorem wxK_apply (a1 : (⟨S512x1024, .f32⟩ : BufTy).Contents (Elt Ideal)) (i o : Fin 512) :
    wxK (F := Ideal) a1 (ix2 i o) = a1 (ix2 o (⟨i.val, by omega⟩ : Fin 1024)) := by
  unfold wxK
  rw [transpose_apply [1, 0] _ transposes_S512x512_S512x512_1_0 (ix2 i o) (ix2 o i) (fun b => by
    match b with
    | ⟨0, _⟩ => rfl
    | ⟨1, _⟩ => rfl)]
  exact extractStridedSlice_apply ![0, 0] a1 slices_S512x1024_S512x512_0_0 (ix2 o i) (ix2 o (⟨i.val, by omega⟩ : Fin 1024)) (fun a => by
    match a with
    | ⟨0, _⟩ => show o.val = 0 + o.val; omega
    | ⟨1, _⟩ => show i.val = 0 + i.val; omega)

/-- The transposed right half of the weights at `(i, o)` is `w (o, 512 + i)`. -/
theorem wmK_apply (a1 : (⟨S512x1024, .f32⟩ : BufTy).Contents (Elt Ideal)) (i o : Fin 512) :
    wmK (F := Ideal) a1 (ix2 i o) = a1 (ix2 o (⟨512 + i.val, by omega⟩ : Fin 1024)) := by
  unfold wmK
  rw [transpose_apply [1, 0] _ transposes_S512x512_S512x512_1_0 (ix2 i o) (ix2 o i) (fun b => by
    match b with
    | ⟨0, _⟩ => rfl
    | ⟨1, _⟩ => rfl)]
  exact extractStridedSlice_apply ![0, 512] a1 slices_S512x1024_S512x512_0_512 (ix2 o i) (ix2 o (⟨512 + i.val, by omega⟩ : Fin 1024)) (fun a => by
    match a with
    | ⟨0, _⟩ => show o.val = 0 + o.val; omega
    | ⟨1, _⟩ => show 512 + i.val = 512 + i.val; omega)

/-- The first 10000 rows of the padded output are the layer of the features, the means and the weights. -/
theorem cut_outPad (x mean : (⟨S10000x512, .f32⟩ : BufTy).Contents (Elt Ideal)) (a1 : (⟨S512x1024, .f32⟩ : BufTy).Contents (Elt Ideal)) :
    extractStridedSlice S10000x512 ![0, 0] (outPad (padK (F := Ideal) x) (padK (F := Ideal) mean) (wxK (F := Ideal) a1) (wmK (F := Ideal) a1))
        slices_S10240x512_S10000x512_0_0
      = Cert.Spec.sage x mean a1 := by
  funext j
  obtain ⟨n, o, rfl⟩ : ∃ (n : Fin 10000) (o : Fin 512), j = ix2 n o := ⟨j 0, j 1, eq_ix2 j⟩
  rw [extractStridedSlice_apply ![0, 0] _ slices_S10240x512_S10000x512_0_0 (ix2 n o) (ix2 (⟨n.val, by omega⟩ : Fin 10240) o) (fun a => by
    match a with
    | ⟨0, _⟩ => show n.val = 0 + n.val; omega
    | ⟨1, _⟩ => show o.val = 0 + o.val; omega)]
  show max ((∑ i : Fin 512, padK (F := Ideal) x (ix2 (⟨n.val, by omega⟩ : Fin 10240) i) * wxK (F := Ideal) a1 (ix2 i o))
      + ∑ i : Fin 512, padK (F := Ideal) mean (ix2 (⟨n.val, by omega⟩ : Fin 10240) i) * wmK (F := Ideal) a1 (ix2 i o)) 0
    = max ((∑ i : Fin 512, x (ix2 n i) * a1 (ix2 o (⟨i.val, by omega⟩ : Fin 1024)))
      + ∑ i : Fin 512, mean (ix2 n i) * a1 (ix2 o (⟨512 + i.val, by omega⟩ : Fin 1024))) 0
  refine congrArg₂ max (congrArg₂ (· + ·) (Finset.sum_congr rfl fun i _ => ?_) (Finset.sum_congr rfl fun i _ => ?_)) rfl
  · rw [padK_apply, wxK_apply]
  · rw [padK_apply, wmK_apply]

end Cert.KernelIdeal.Bridge

end
-- ==== Proof.KRun.lean ====
import proofs.«116235_j62569083568400_2_alg».proof.Proof.Gen.KernelIdeal.Frame
import Idealize.ShloMosaic.Lib.StableHlo.Run
import Idealize.ShloMosaic.Lib.Pipeline.Value
import Idealize.ShloMosaic.Lib.ValueIdx
import proofs.«116235_j62569083568400_2_alg».proof.Proof.KEntry

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat)

/-! The kernel's run, read: after the region the host cuts the padded output back to 10000 rows, and that is the layer
    of the argument arrays — the features, the kernel's neighbour means of them, the weights. -/

variable (m : (ℓ : Loc nD τ sig) → Buf (Elt Ideal) ℓ) (ρ : Dev nD → PrngReg)

/-- What the line after the region leaves in the result: the first 10000 rows of the region's output array. -/
theorem tail_eq (c : Dev nD) :
    Pipeline.afterTail₀ cfgs (dats m) 0 (V0 m) [hostOps1] c main_v31
      = Cert.Spec.sage (m ((c : Thread nD τ).loc main_arg0))
          (meanK (F := Ideal) (m ((c : Thread nD τ).loc main_arg0)) (m ((c : Thread nD τ).loc main_arg2)))
          (m ((c : Thread nD τ).loc main_arg1)) := by
  unfold Pipeline.afterTail₀
  show StableHlo.after hostOps1 _ (Proc.devRef .tc main_v31) = _
  after_results
  rw [show Pipeline.withArrays (cfgs 0).spec c (V0 m c) (fun w => (dats m 0 c).arrAt w (cfgs 0).N) (Proc.devRef .tc main_v30)
      = outPad (V m c main_v28) (V m c main_v29) (V m c main_v26) (V m c main_v27) from
    (Pipeline.withArrays_arr spec0 launch0.win.arr_inj c _ _ 4).trans (final4 m c)]
  rw [V_v28, V_v29, V_v26, V_v27]
  exact cut_outPad _ _ _

/-- Every weakly fair execution of the kernel's program terminates with the result at the layer of the arguments,
    the arguments unchanged. -/
theorem run : θ_run defs (onTc (τ := τ) (main (F := Ideal))) ⟨m, fun _ => 0, ρ⟩ fun r => ∀ c : Dev nD,
      r.2.mem ((c.tc : Thread nD τ).loc main_v31)
        = Cert.Spec.sage (m ((c : Thread nD τ).loc main_arg0))
            (meanK (F := Ideal) (m ((c : Thread nD τ).loc main_arg0)) (m ((c : Thread nD τ).loc main_arg2)))
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v31 (Pipeline.mem_restRefs_of main_v31 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Bridge

end
-- ==== Proof.LibScatter.lean ====
/-
  An accumulating scatter of rows, read at an entry, on the extended reals.

  The scatter adds row `e` of the updates into row `idx e` of the operand (the row index read as a signed integer;
  a row index outside the operand drops the update). So entry `(n, f)` of the result is the operand's entry plus the
  sum, over the update rows `e` whose index is `n`, of the updates' entry `(e, f)`. The same for a scatter of
  scalars into a vector. Every update element lands in its own column, so the sum over the update elements that
  land on `(n, f)` collapses to a sum over the update rows.
-/
import Idealize.ShloMosaic.PureOps.Ideal
import Idealize.ShloMosaic.PureOps.Ideal.Laws
import Idealize.ShloMosaic.Lib.ValueIdx

noncomputable section

namespace Cert.LibScatter

open Idealize.ShloMosaic Idealize.ShloMosaic.ValueIdx

/-- The dimension numbers of a scatter of `E` rows of `C` columns into an `[N, C]` operand, one row index per update row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowDims_start0 (idx : IVec ⟨2, ![E, 1]⟩ w) (e : Fin E) (f : Fin C) :
    (rowDims N E C wf).start (ix2 e f) idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

theorem rowDims_start1 (idx : IVec ⟨2, ![E, 1]⟩ w) (j : (⟨2, ![E, C]⟩ : Shape).Idx) :
    (rowDims N E C wf).start j idx 1 = 0 := by
  unfold ScatterDims.start
  rw [dif_neg (show (1 : Fin 2) ∉ ([0] : List (Fin 2)) by decide)]

theorem rowDims_window0 (j : (⟨2, ![E, C]⟩ : Shape).Idx) : (rowDims N E C wf).window j 0 = 0 := by
  unfold ScatterDims.window
  have h : (0 : Fin 2) ∉ (rowDims N E C wf).sKept := by
    show (0 : Fin 2) ∉ (List.finRange 2).filter (· ∉ ([0] : List (Fin 2)))
    decide
  rw [dif_neg h]

theorem rowDims_window1 (j : (⟨2, ![E, C]⟩ : Shape).Idx) : (rowDims N E C wf).window j 1 = (j 1).val := by
  unfold ScatterDims.window
  have h : (1 : Fin 2) ∈ (rowDims N E C wf).sKept := by
    show (1 : Fin 2) ∈ (List.finRange 2).filter (· ∉ ([0] : List (Fin 2)))
    decide
  rw [dif_pos h]
  rfl

/-- Update element `(e, f)` lands on `(n, f')` exactly when row `e`'s index is `n` and the columns agree. -/
theorem rowDims_resultIdx_iff (idx : IVec ⟨2, ![E, 1]⟩ w) (e : Fin E) (f f' : Fin C) (n : Fin N) :
    (rowDims N E C wf).resultIdx? (ix2 e f) idx = some (ix2 n f')
      ↔ (idx (ix2 e (0 : Fin 1))).toInt = (n.val : Int) ∧ f = f' := by
  unfold ScatterDims.resultIdx?
  split
  · next h =>
    rw [Option.some.injEq]
    constructor
    · intro hEq
      have h0 := congrArg (fun i : (⟨2, ![N, C]⟩ : Shape).Idx => (i 0).val) hEq
      have h1 := congrArg (fun i : (⟨2, ![N, C]⟩ : Shape).Idx => (i 1).val) hEq
      simp only [rowDims_start0, rowDims_start1, rowDims_window0, rowDims_window1] at h0 h1
      have g0 := (h 0).1
      rw [rowDims_start0, rowDims_window0] at g0
      refine ⟨?_, Fin.ext ?_⟩
      · change ((idx (ix2 e (0 : Fin 1))).toInt + ((0 : Nat) : Int)).toNat = n.val at h0
        omega
      · change (((0 : Int)) + (((f.val : Nat)) : Int)).toNat = f'.val at h1
        omega
    · rintro ⟨hi, rfl⟩
      funext a; refine Fin.ext ?_
      match a with
      | ⟨0, _⟩ =>
        show ((rowDims N E C wf).start (ix2 e f) idx 0 + ((rowDims N E C wf).window (ix2 e f) 0 : Nat)).toNat = n.val
        rw [rowDims_start0, rowDims_window0, hi]; omega
      | ⟨1, _⟩ =>
        show ((rowDims N E C wf).start (ix2 e f) idx 1 + ((rowDims N E C wf).window (ix2 e f) 1 : Nat)).toNat = f.val
        rw [rowDims_start1, rowDims_window1]; show ((0 : Int) + (f.val : Int)).toNat = f.val; omega
  · next h =>
    constructor
    · intro hh; exact absurd hh (by simp)
    · rintro ⟨hi, rfl⟩
      exfalso; apply h
      intro a
      match a with
      | ⟨0, _⟩ =>
        show 0 ≤ (rowDims N E C wf).start (ix2 e f) idx 0 + ((rowDims N E C wf).window (ix2 e f) 0 : Nat) ∧ (rowDims N E C wf).start (ix2 e f) idx 0 + ((rowDims N E C wf).window (ix2 e f) 0 : Nat) < (N : Int)
        rw [rowDims_start0, rowDims_window0, hi]; have := n.isLt; omega
      | ⟨1, _⟩ =>
        show 0 ≤ (rowDims N E C wf).start (ix2 e f) idx 1 + ((rowDims N E C wf).window (ix2 e f) 1 : Nat) ∧ (rowDims N E C wf).start (ix2 e f) idx 1 + ((rowDims N E C wf).window (ix2 e f) 1 : Nat) < (C : Int)
        rw [rowDims_start1, rowDims_window1]; have := f.isLt; show 0 ≤ (0 : Int) + (f.val : Int) ∧ (0 : Int) + (f.val : Int) < C; omega

/-- THE ROW SCATTER READ AT `(n, f)`: the operand's entry plus the sum over the update rows whose index is `n` of their entry in column `f`. -/
theorem scatterAdd_rows_apply {φ : FTy} (x : FVec Ideal ⟨2, ![N, C]⟩ φ) (idx : IVec ⟨2, ![E, 1]⟩ w)
    (upd : FVec Ideal ⟨2, ![E, C]⟩ φ) (n : Fin N) (f : Fin C) :
    Host.scatterAdd (F := Ideal) (rowDims N E C wf) x idx upd (ix2 n f)
      = x (ix2 n f) + ∑ e : Fin E, if (idx (ix2 e (0 : Fin 1))).toInt = (n.val : Int) then upd (ix2 e f) else 0 := by
  show x (ix2 n f) + ∑ j ∈ Finset.univ.filter (fun j => (rowDims N E C wf).resultIdx? j idx = some (ix2 n f)), upd j = _
  congr 1
  rw [Finset.sum_filter, sum_idx2]
  refine Finset.sum_congr rfl fun e _ => ?_
  simp only [rowDims_resultIdx_iff]
  by_cases hA : (idx (ix2 e (0 : Fin 1))).toInt = (n.val : Int)
  · simp [hA]
  · simp [hA]

/-! ## A scatter of scalars into a vector -/

/-- The dimension numbers of a scatter of `E` scalars into an `[N]` operand, one index per update. -/
abbrev cntDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

theorem cntDims_start0 (idx : IVec ⟨2, ![E, 1]⟩ w) (e : Fin E) :
    (cntDims N E wf1).start (ix1 e) idx 0 = (idx (ix2 e (0 : Fin 1))).toInt := by
  unfold ScatterDims.start
  rw [dif_pos (show (0 : Fin 1) ∈ (cntDims N E wf1).scatterDimsToOperandDims from List.mem_singleton.mpr rfl)]
  congr 2
  funext b; refine Fin.ext ?_
  match b with
  | ⟨0, _⟩ => rfl
  | ⟨1, _⟩ => rfl

theorem cntDims_window0 (j : (⟨1, ![E]⟩ : Shape).Idx) : (cntDims N E wf1).window j 0 = 0 := by
  unfold ScatterDims.window
  have h : (0 : Fin 1) ∉ (cntDims N E wf1).sKept := by
    show (0 : Fin 1) ∉ (List.finRange 1).filter (· ∉ ([0] : List (Fin 1)))
    decide
  rw [dif_neg h]

/-- Update `e` lands on `n` exactly when its index is `n`. -/
theorem cntDims_resultIdx_iff (idx : IVec ⟨2, ![E, 1]⟩ w) (e : Fin E) (n : Fin N) :
    (cntDims N E wf1).resultIdx? (ix1 e) idx = some (ix1 n) ↔ (idx (ix2 e (0 : Fin 1))).toInt = (n.val : Int) := by
  unfold ScatterDims.resultIdx?
  split
  · next h =>
    rw [Option.some.injEq]
    constructor
    · intro hEq
      have h0 := congrArg (fun i : (⟨1, ![N]⟩ : Shape).Idx => (i 0).val) hEq
      simp only [cntDims_start0, cntDims_window0] at h0
      have g0 := (h 0).1
      rw [cntDims_start0, cntDims_window0] at g0
      change ((idx (ix2 e (0 : Fin 1))).toInt + ((0 : Nat) : Int)).toNat = n.val at h0
      omega
    · intro hi
      funext a; refine Fin.ext ?_
      match a with
      | ⟨0, _⟩ =>
        show ((cntDims N E wf1).start (ix1 e) idx 0 + ((cntDims N E wf1).window (ix1 e) 0 : Nat)).toNat = n.val
        rw [cntDims_start0, cntDims_window0, hi]; omega
  · next h =>
    constructor
    · intro hh; exact absurd hh (by simp)
    · intro hi
      exfalso; apply h
      intro a
      match a with
      | ⟨0, _⟩ =>
        show 0 ≤ (cntDims N E wf1).start (ix1 e) idx 0 + ((cntDims N E wf1).window (ix1 e) 0 : Nat) ∧ (cntDims N E wf1).start (ix1 e) idx 0 + ((cntDims N E wf1).window (ix1 e) 0 : Nat) < (N : Int)
        rw [cntDims_start0, cntDims_window0, hi]; have := n.isLt; omega

/-- THE SCALAR SCATTER READ AT `n`: the operand's entry plus the sum of the updates whose index is `n`. -/
theorem scatterAdd_cnt_apply {φ : FTy} (x : FVec Ideal ⟨1, ![N]⟩ φ) (idx : IVec ⟨2, ![E, 1]⟩ w)
    (upd : FVec Ideal ⟨1, ![E]⟩ φ) (n : Fin N) :
    Host.scatterAdd (F := Ideal) (cntDims N E wf1) x idx upd (ix1 n)
      = x (ix1 n) + ∑ e : Fin E, if (idx (ix2 e (0 : Fin 1))).toInt = (n.val : Int) then upd (ix1 e) else 0 := by
  show x (ix1 n) + ∑ j ∈ Finset.univ.filter (fun j => (cntDims N E wf1).resultIdx? j idx = some (ix1 n)), upd j = _
  congr 1
  rw [Finset.sum_filter]
  refine Fintype.sum_equiv ⟨fun j => j 0, fun e => ix1 e, fun j => (eq_ix1 j).symm, fun _ => rfl⟩ _ _ fun j => ?_
  obtain ⟨e, rfl⟩ : ∃ e : Fin E, j = ix1 e := ⟨j 0, eq_ix1 j⟩
  show (if (cntDims N E wf1).resultIdx? (ix1 e) idx = some (ix1 n) then upd (ix1 e) else 0)
    = if (idx (ix2 e (0 : Fin 1))).toInt = (n.val : Int) then upd (ix1 e) else 0
  simp only [cntDims_resultIdx_iff]

end Cert.LibScatter

end
-- ==== Proof.LibSegSum.lean ====
/-
  A row scatter of `[G | o]` — a matrix with one more column appended — read column by column: its first columns are
  the row scatter of `G`, and its appended column is the scalar scatter of that column. Both follow from the scatter
  read at an entry, which sums the update rows whose index is the entry's row: the concatenation reads `G` in the
  first columns and `o` in the appended one.
-/
import proofs.«116235_j62569083568400_2_alg».proof.Proof.LibScatter
import Idealize.ShloMosaic.Lib.Pipeline.Value

noncomputable section

namespace Cert.LibScatter

open Idealize.ShloMosaic Idealize.ShloMosaic.ValueIdx

variable {N E C C' w : Nat} {φ : FTy}

/-- Column `f` of the first `C` columns: the row scatter of `[G | o]` is the row scatter of `G`. -/
theorem scatter_cat_left (hC : C + 1 = C')
    (wf' : ScatterDims.WF ⟨2, ![N, C']⟩ ⟨2, ![E, 1]⟩ ⟨2, ![E, C']⟩ [1] [0] [0] 1)
    (wf : ScatterDims.WF ⟨2, ![N, C]⟩ ⟨2, ![E, 1]⟩ ⟨2, ![E, C]⟩ [1] [0] [0] 1)
    (Z' : FVec Ideal ⟨2, ![N, C']⟩ φ) (Z : FVec Ideal ⟨2, ![N, C]⟩ φ) (idx : IVec ⟨2, ![E, 1]⟩ w)
    (G : FVec Ideal ⟨2, ![E, C]⟩ φ) (o : FVec Ideal ⟨2, ![E, 1]⟩ φ)
    (hc : Shape.Concatenates [⟨2, ![E, C]⟩, ⟨2, ![E, 1]⟩] ⟨2, ![E, C']⟩ 1) (n : Fin N) (f : Fin C)
    (hZ : Z' (ix2 n ⟨f.val, by omega⟩) = Z (ix2 n f)) :
    Host.scatterAdd (F := Ideal) (rowDims N E C' wf') Z' idx
        (concatenate ⟨2, ![E, C']⟩ 1 [⟨⟨2, ![E, C]⟩, G⟩, ⟨⟨2, ![E, 1]⟩, o⟩] hc) (ix2 n ⟨f.val, by omega⟩)
      = Host.scatterAdd (F := Ideal) (rowDims N E C wf) Z idx G (ix2 n f) := by
  rw [scatterAdd_rows_apply, scatterAdd_rows_apply, hZ]
  congr 1
  refine Finset.sum_congr rfl fun e _ => ?_
  rw [concatenate_pair_apply_left (t := ⟨2, ![E, C']⟩) (s₁ := ⟨2, ![E, C]⟩) (s₂ := ⟨2, ![E, 1]⟩) (1 : Fin 2) G o hc (ix2 e ⟨f.val, by omega⟩) rfl (ix2 e f) (fun b => by
    match b with
    | ⟨0, _⟩ => rfl
    | ⟨1, _⟩ => rfl)]

/-- The appended column: the row scatter of `[G | o]` is the scalar scatter of `o`. -/
theorem scatter_cat_last (hC : C + 1 = C')
    (wf' : ScatterDims.WF ⟨2, ![N, C']⟩ ⟨2, ![E, 1]⟩ ⟨2, ![E, C']⟩ [1] [0] [0] 1)
    (wf1 : ScatterDims.WF ⟨1, ![N]⟩ ⟨2, ![E, 1]⟩ ⟨1, ![E]⟩ [] [0] [0] 1)
    (Z' : FVec Ideal ⟨2, ![N, C']⟩ φ) (Z1 : FVec Ideal ⟨1, ![N]⟩ φ) (idx : IVec ⟨2, ![E, 1]⟩ w)
    (G : FVec Ideal ⟨2, ![E, C]⟩ φ) (o : FVec Ideal ⟨2, ![E, 1]⟩ φ) (o1 : FVec Ideal ⟨1, ![E]⟩ φ)
    (hc : Shape.Concatenates [⟨2, ![E, C]⟩, ⟨2, ![E, 1]⟩] ⟨2, ![E, C']⟩ 1) (n : Fin N)
    (hZ : Z' (ix2 n ⟨C, by omega⟩) = Z1 (ix1 n)) (ho : ∀ e : Fin E, o (ix2 e (0 : Fin 1)) = o1 (ix1 e)) :
    Host.scatterAdd (F := Ideal) (rowDims N E C' wf') Z' idx
        (concatenate ⟨2, ![E, C']⟩ 1 [⟨⟨2, ![E, C]⟩, G⟩, ⟨⟨2, ![E, 1]⟩, o⟩] hc) (ix2 n ⟨C, by omega⟩)
      = Host.scatterAdd (F := Ideal) (cntDims N E wf1) Z1 idx o1 (ix1 n) := by
  rw [scatterAdd_rows_apply, scatterAdd_cnt_apply, hZ]
  congr 1
  refine Finset.sum_congr rfl fun e _ => ?_
  rw [concatenate_pair_apply_right (t := ⟨2, ![E, C']⟩) (s₁ := ⟨2, ![E, C]⟩) (s₂ := ⟨2, ![E, 1]⟩) (1 : Fin 2) G o hc (ix2 e ⟨C, by omega⟩) rfl rfl (ix2 e (0 : Fin 1)) (fun b hb => by
    match b with
    | ⟨0, _⟩ => rfl
    | ⟨1, _⟩ => exact absurd rfl hb) (by show 0 + C = C; omega), ho e]

end Cert.LibScatter

end
-- ==== Proof.MeanEq.lean ====
/-
  The kernel and the reference compute the same neighbour means. The kernel scatters `[neighbour rows | 1]` once and
  reads the feature sums off the first 512 columns and the in-degree off the last; the reference scatters the
  neighbour rows and a vector of ones separately. A row scatter acts column by column, so the two agree, and the rest
  of the mean (the division by `max (degree, 1)` broadcast along the rows) is the same operations on both sides.
-/
import proofs.«116235_j62569083568400_2_alg».proof.Proof.KHost
import proofs.«116235_j62569083568400_2_alg».proof.Proof.Gen.ReferenceIdeal.Read
import proofs.«116235_j62569083568400_2_alg».proof.Proof.LibSegSum
import Idealize.ShloMosaic.Lib.Pipeline.Value
import Idealize.ShloMosaic.Lib.ValueIdx

noncomputable section

namespace Cert.Bridge

open Idealize.ShloMosaic Idealize.ShloMosaic.ValueIdx
open Cert.KernelIdeal Cert.KernelIdeal.Gen Cert.KernelIdeal.Bridge Cert.ReferenceIdeal.Read

variable (a0 : (⟨S10000x512, .f32⟩ : BufTy).Contents (Elt Ideal)) (a2 : (⟨S2x160000, .i32⟩ : BufTy).Contents (Elt Ideal))

/-- Both programs gather the same neighbour rows. -/
theorem gath_eq : gathK (F := Ideal) a0 a2 = val_main_v10 (F := Ideal) a0 a2 := rfl

/-- Both programs scatter over the same destination-node column. -/
theorem dst_eq : dstK (F := Ideal) a2 = val_main_v12 (F := Ideal) a2 := rfl

/-- The first 512 columns of the kernel's scatter are the reference's feature sums. -/
theorem sums_left :
    extractStridedSlice S10000x512 ![0, 0] (sumsK (F := Ideal) a0 a2) slices_S10000x513_S10000x512_0_0
      = val_main_v13 (F := Ideal) a0 a2 := by
  funext j
  obtain ⟨n, f, rfl⟩ : ∃ (n : Fin 10000) (f : Fin 512), j = ix2 n f := ⟨j 0, j 1, eq_ix2 j⟩
  rw [extractStridedSlice_apply ![0, 0] _ slices_S10000x513_S10000x512_0_0 (ix2 n f) (ix2 n (⟨f.val, by omega⟩ : Fin 513)) (fun a => by
    match a with
    | ⟨0, _⟩ => show n.val = 0 + n.val; omega
    | ⟨1, _⟩ => show f.val = 0 + f.val; omega)]
  have hZ : (broadcastInDim S10000x513 ![] bcast_S_S10000x513 (constant (F := Ideal) S_ .f32 0x00000000#32)) (ix2 n (⟨f.val, by omega⟩ : Fin 513))
      = val_main_v11 (F := Ideal) (ix2 n f) := by
    unfold val_main_v11
    rw [broadcastInDim_apply ![] _ _ _ ix0 (fun a => a.elim0), broadcastInDim_apply ![] _ _ _ ix0 (fun a => a.elim0)]
    rfl
  unfold sumsK val_main_v13
  rw [gath_eq, dst_eq]
  exact Cert.LibScatter.scatter_cat_left (C := 512) (C' := 513) rfl _ _ _ _ _ _ _ _ n f hZ

/-- The last column of the kernel's scatter is the reference's in-degree. -/
theorem sums_last :
    shapeCast S10000 (extractStridedSlice S10000x1 ![0, 512] (sumsK (F := Ideal) a0 a2) slices_S10000x513_S10000x1_0_512) shapeCasts_S10000x1_S10000
      = val_main_v17 (F := Ideal) a2 := by
  funext j
  obtain ⟨n, rfl⟩ : ∃ n : Fin 10000, j = ix1 n := ⟨j 0, eq_ix1 j⟩
  rw [shapeCast_apply _ shapeCasts_S10000x1_S10000 (ix1 n) (ix2 n (0 : Fin 1)) (by
    rw [Shape.rowMajor_val_two, Shape.rowMajor_val_one]; show n.val * 1 + 0 = n.val; omega)]
  rw [extractStridedSlice_apply ![0, 512] _ slices_S10000x513_S10000x1_0_512 (ix2 n (0 : Fin 1)) (ix2 n (⟨512, by omega⟩ : Fin 513)) (fun a => by
    match a with
    | ⟨0, _⟩ => show n.val = 0 + n.val; omega
    | ⟨1, _⟩ => show 512 = 512 + 0; omega)]
  have hZ : (broadcastInDim S10000x513 ![] bcast_S_S10000x513 (constant (F := Ideal) S_ .f32 0x00000000#32)) (ix2 n (⟨512, by omega⟩ : Fin 513))
      = val_main_v15 (F := Ideal) (ix1 n) := by
    unfold val_main_v15
    rw [broadcastInDim_apply ![] _ _ _ ix0 (fun a => a.elim0), broadcastInDim_apply ![] _ _ _ ix0 (fun a => a.elim0)]
    rfl
  have ho : ∀ e : Fin 160000, (broadcastInDim S160000x1 ![] bcast_S_S160000x1 (constant (F := Ideal) S_ .f32 0x3F800000#32)) (ix2 e (0 : Fin 1))
      = val_main_v14 (F := Ideal) (ix1 e) := fun e => by
    unfold val_main_v14
    rw [broadcastInDim_apply ![] _ _ _ ix0 (fun a => a.elim0), broadcastInDim_apply ![] _ _ _ ix0 (fun a => a.elim0)]
    rfl
  unfold sumsK val_main_v17
  rw [dst_eq]
  exact Cert.LibScatter.scatter_cat_last (C := 512) (C' := 513) rfl _ _ _ _ _ _ _ _ _ n hZ ho

/-- The kernel's neighbour mean is the reference's. -/
theorem mean_eq : meanK (F := Ideal) a0 a2 = val_main_v22 (F := Ideal) a0 a2 := by
  unfold meanK
  rw [sums_left, sums_last]
  rfl

end Cert.Bridge

end
-- ==== Proof.RefEntry.lean ====
/-
  The reference is the layer: its result at `(n, o)` is `max (∑ k < 1024, [x | mean] (n, k) · w (o, k), 0)`, and the
  concatenation reads `x` in its first 512 columns and the neighbour mean in its last 512, so the sum splits at
  column 512 into the layer's two sums.
-/
import proofs.«116235_j62569083568400_2_alg».proof.Proof.Gen.ReferenceIdeal.Read
import proofs.«116235_j62569083568400_2_alg».proof.Proof.Spec
import Idealize.ShloMosaic.PureOps.Ideal.Laws
import Idealize.ShloMosaic.Lib.Pipeline.Value
import Idealize.ShloMosaic.Lib.ValueIdx

noncomputable section

namespace Cert.ReferenceIdeal.Bridge

open Cert.ReferenceIdeal Cert.ReferenceIdeal.Gen Cert.ReferenceIdeal.Read Idealize.ShloMosaic Idealize.ShloMosaic.ValueIdx

variable (x0 : (⟨S10000x512, .f32⟩ : BufTy).Contents (Elt Ideal)) (x1 : (⟨S512x1024, .f32⟩ : BufTy).Contents (Elt Ideal))
  (x2 : (⟨S2x160000, .i32⟩ : BufTy).Contents (Elt Ideal))

/-- The first 512 columns of the concatenation are the features. -/
theorem cat_left (n : Fin 10000) (i : Fin 512) :
    val_main_v23 (F := Ideal) x0 x2 (ix2 n (⟨i.val, by omega⟩ : Fin 1024)) = x0 (ix2 n i) := by
  unfold val_main_v23
  exact concatenate_pair_apply_left (t := S10000x1024) (s₁ := S10000x512) (s₂ := S10000x512) (1 : Fin 2) x0 _ concatenates_S10000x512_S10000x512_S10000x1024_d1
    (ix2 n (⟨i.val, by omega⟩ : Fin 1024)) rfl (ix2 n i) (fun b => by
      match b with
      | ⟨0, _⟩ => rfl
      | ⟨1, _⟩ => rfl)

/-- The last 512 columns of the concatenation are the neighbour means. -/
theorem cat_right (n : Fin 10000) (i : Fin 512) :
    val_main_v23 (F := Ideal) x0 x2 (ix2 n (⟨512 + i.val, by omega⟩ : Fin 1024)) = val_main_v22 (F := Ideal) x0 x2 (ix2 n i) := by
  unfold val_main_v23
  exact concatenate_pair_apply_right (t := S10000x1024) (s₁ := S10000x512) (s₂ := S10000x512) (1 : Fin 2) x0 _ concatenates_S10000x512_S10000x512_S10000x1024_d1
    (ix2 n (⟨512 + i.val, by omega⟩ : Fin 1024)) rfl rfl (ix2 n i) (fun b hb => by
      match b with
      | ⟨0, _⟩ => rfl
      | ⟨1, _⟩ => exact absurd rfl hb) (by show i.val + 512 = 512 + i.val; omega)

/-- The reference's result is the layer of the features, the reference's neighbour means and the weights. -/
theorem result_eq : val_main_v25 (F := Ideal) x0 x1 x2 = Cert.Spec.sage x0 (val_main_v22 (F := Ideal) x0 x2) x1 := by
  funext j
  obtain ⟨n, o, rfl⟩ : ∃ (n : Fin 10000) (o : Fin 512), j = ix2 n o := ⟨j 0, j 1, eq_ix2 j⟩
  rw [val_main_v25_apply, val_main_v24_apply, val_main_call0_v0_apply, val_main_call0_cst_apply]
  show max _ (Ideal.ofBits .f32 0x00000000#32) = _
  rw [Ideal.ofBits_zero_f32, Cert.Spec.sum_split]
  unfold Cert.Spec.sage
  refine congrArg₂ max (congrArg₂ (· + ·) (Finset.sum_congr rfl fun i _ => ?_) (Finset.sum_congr rfl fun i _ => ?_)) rfl
  · have hl : lidx_main_v24 (ix2 n o) (⟨i.val, by omega⟩ : Fin 1024) = ix2 n (⟨i.val, by omega⟩ : Fin 1024) :=
      funext fun a => by match a with | ⟨0, _⟩ => rfl | ⟨1, _⟩ => rfl
    have hr : ridx_main_v24 (ix2 n o) (⟨i.val, by omega⟩ : Fin 1024) = ix2 o (⟨i.val, by omega⟩ : Fin 1024) :=
      funext fun a => by match a with | ⟨0, _⟩ => rfl | ⟨1, _⟩ => rfl
    rw [hl, hr, cat_left]
  · have hl : lidx_main_v24 (ix2 n o) (⟨512 + i.val, by omega⟩ : Fin 1024) = ix2 n (⟨512 + i.val, by omega⟩ : Fin 1024) :=
      funext fun a => by match a with | ⟨0, _⟩ => rfl | ⟨1, _⟩ => rfl
    have hr : ridx_main_v24 (ix2 n o) (⟨512 + i.val, by omega⟩ : Fin 1024) = ix2 o (⟨512 + i.val, by omega⟩ : Fin 1024) :=
      funext fun a => by match a with | ⟨0, _⟩ => rfl | ⟨1, _⟩ => rfl
    rw [hl, hr, cat_right]

end Cert.ReferenceIdeal.Bridge

end
-- ==== Proof.lean ====
/-
  A GraphSAGE-mean layer, `h = relu (W · [x | mean of the in-neighbours' x])`, as a tiled kernel against a plain
  reference, equal entry by entry on the extended reals.

  Both programs gather each edge's source features and sum them per destination node; the kernel appends a column
  of ones and scatters once (sums in columns 0–511, in-degree in column 512), the reference scatters the rows and a
  vector of ones separately. A row scatter acts column by column, so the two neighbour means `sums / max (degree, 1)`
  are the same array (MeanEq, over LibScatter and LibSegSum).

  The kernel multiplies in five blocks of 2048 padded rows, `max (x · Wxᵀ + mean · Wmᵀ, 0)` with the two halves of
  `W` transposed on the host, and cuts the 240 padding rows off again (KPay: one stored entry; KBlocks: the blocks
  tile the padded output; KHost, KEntry: the host lines around the region; KRun: the run). The reference contracts
  `[x | mean]` with `W` over all 1024 columns (RefEntry). Splitting that sum at column 512 gives the kernel's two
  sums (Spec); changes of float format are the identity on the extended reals, and no step uses finiteness of the
  inputs. The three frames are the generated ones, the reference's its generated run with the result dropped; the
  idealization rewrote nothing.
-/
import proofs.«116235_j62569083568400_2_alg».proof.Defs
import proofs.«116235_j62569083568400_2_alg».proof.Proof.Gen.Kernel
import proofs.«116235_j62569083568400_2_alg».proof.Proof.Gen.Kernel.Skeleton
import proofs.«116235_j62569083568400_2_alg».proof.Proof.Gen.Kernel.Launch
import proofs.«116235_j62569083568400_2_alg».proof.Proof.Gen.Kernel.Points
import proofs.«116235_j62569083568400_2_alg».proof.Proof.Gen.Kernel.Frame
import proofs.«116235_j62569083568400_2_alg».proof.Proof.Gen.KernelIdeal
import proofs.«116235_j62569083568400_2_alg».proof.Proof.Gen.KernelIdeal.Skeleton
import proofs.«116235_j62569083568400_2_alg».proof.Proof.Gen.KernelIdeal.Launch
import proofs.«116235_j62569083568400_2_alg».proof.Proof.Gen.KernelIdeal.Points
import proofs.«116235_j62569083568400_2_alg».proof.Proof.Gen.KernelIdeal.Frame
import proofs.«116235_j62569083568400_2_alg».proof.Proof.Gen.ReferenceIdeal
import proofs.«116235_j62569083568400_2_alg».proof.Proof.Gen.Pre_finite_inputs
import proofs.«116235_j62569083568400_2_alg».proof.Proof.Gen.ReferenceIdeal.Run
import proofs.«116235_j62569083568400_2_alg».proof.Proof.Gen.ReferenceIdeal.Read
import proofs.«116235_j62569083568400_2_alg».proof.Proof.KRun
import proofs.«116235_j62569083568400_2_alg».proof.Proof.MeanEq
import proofs.«116235_j62569083568400_2_alg».proof.Proof.RefEntry
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the layer of the features, the reference's neighbour means and the weights: the kernel's by
    its run and the equality of the two means, the reference's by its run split at column 512. -/
theorem algebraic : Cert.algebraic_KernelIdeal_ReferenceIdeal := by
  intro m ρ m' ρ' _ hagree
  refine ⟨fun c => Cert.Spec.sage (m ((c.tc : Thread Cert.KernelIdeal.nD Cert.KernelIdeal.τ).loc Cert.KernelIdeal.main_arg0))
      (Cert.ReferenceIdeal.Read.val_main_v22 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Bridge.run m ρ)
    rw [Cert.Bridge.mean_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.Bridge.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
